-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x2 : Shape := ⟨2, ![262144, 2]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x2 : S_.BroadcastsInDim S262144x2 (![] : Fin 0 → Fin S262144x2.rank)
  reducesTo_S262144x2_S_d0_1 : S262144x2.ReducesTo [0, 1] S_

variable [Facts]

def fn_part1 {F : FTy → Type} [FloatOps F] (main_v13 : IVec S_ 1) (main_v16 : IVec S262144x2 1) : IVec S_ 1 :=
  let main_c_5 : IVec S_ 1 := constantI S_ 1 1#1
  let main_v17 : IVec S_ 1 := (fun x v => Host.reduce IntOp.andi x v reducesTo_S262144x2_S_d0_1 h_S_) main_v16 main_c_5
  let main_v18 : IVec S_ 1 := andi main_v13 main_v17
  main_v18

def fn {F : FTy → Type} [FloatOps F] (main_arg0 : FVec F S262144x128 .f32) (main_arg1 : FVec F S262144x128 .f32) (main_arg2 : FVec F S262144x128 .f32) (main_arg3 : FVec F S262144x2 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x2 .f32 := Host.absf main_arg3
  let main_cst_4 : FVec F S_ .f32 := constant S_ .f32 0x7F800000#32
  let main_v15 : FVec F S262144x2 .f32 := broadcastInDim S262144x2 ![] bcast_S_S262144x2 main_cst_4
  let main_v16 : IVec S262144x2 1 := cmpf .olt main_v14 main_v15
  fn_part1 (F := F) main_v13 main_v16
-- ==== Kernel.lean ====
abbrev S262144x128 : Shape := ⟨2, ![262144, 128]⟩
abbrev S262144x2 : Shape := ⟨2, ![262144, 2]⟩
abbrev S16x128 : Shape := ⟨2, ![16, 128]⟩
abbrev S4096x128 : Shape := ⟨2, ![4096, 128]⟩
abbrev S4096x2 : Shape := ⟨2, ![4096, 2]⟩
abbrev S8x128 : Shape := ⟨2, ![8, 128]⟩
abbrev S4096 : Shape := ⟨1, ![4096]⟩
abbrev S4096x1 : Shape := ⟨2, ![4096, 1]⟩
abbrev S32x128 : Shape := ⟨2, ![32, 128]⟩
abbrev S128 : Shape := ⟨1, ![128]⟩
abbrev S1x128 : Shape := ⟨2, ![1, 128]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x2, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x2, .f32⟩
  | .local _ .vmem, ⟨7, _⟩ => ⟨S4096x2, .f32⟩
  | .local _ .vmem, ⟨8, _⟩ => ⟨S8x128, .f32⟩
  | .local _ .vmem, ⟨9, _⟩ => ⟨S8x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  inb_S4096x2_S4096x2_0_0 : ∀ a, (![0, 0] : Fin 2 → Nat) a + S4096x2.size a ≤ S4096x2.size a
  h_S4096x2 : 0 < S4096x2.numel
  slices_S4096x2_o0_0_S4096x1 : S4096x2.Slices ![0, 0] S4096x1
  slices_S4096x2_o0_1_S4096x1 : S4096x2.Slices ![0, 1] S4096x1
  shapeCasts_S4096x1_S32x128 : S4096x1.ShapeCasts S32x128
  reduces_S32x128_S128 : S32x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S262144x2.size a
  hwx0_3 : ∀ i : grid0.Coords, EltTy.bits .f32 = 32 ∨ (Rect.block (s := S262144x2) S4096x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x2 : Shape := ⟨2, ![262144, 2]⟩
abbrev S262144x1 : Shape := ⟨2, ![262144, 1]⟩
abbrev S262144 : Shape := ⟨1, ![262144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x2, .f32⟩
  | .hbm, ⟨4, _⟩ => ⟨S262144x1, .f32⟩
  | .hbm, ⟨5, _⟩ => ⟨S262144, .f32⟩
  | .hbm, ⟨6, _⟩ => ⟨S262144, .f32⟩
  | .hbm, ⟨7, _⟩ => ⟨S262144, .f32⟩
  | .hbm, ⟨8, _⟩ => ⟨S262144x1, .f32⟩
  | .hbm, ⟨9, _⟩ => ⟨S262144, .f32⟩
  | .hbm, ⟨10, _⟩ => ⟨S262144, .f32⟩
  | .hbm, ⟨11, _⟩ => ⟨S262144, .f32⟩
  | .hbm, ⟨12, _⟩ => ⟨S262144x128, .f32⟩
  | .hbm, ⟨13, _⟩ => ⟨S262144x128, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S262144, .f32⟩
  | .hbm, ⟨18, _⟩ => ⟨S262144, .f32⟩
  | .hbm, ⟨19, _⟩ => ⟨S262144x128, .f32⟩
  | .hbm, ⟨20, _⟩ => ⟨S262144x128, .f32⟩
  | .hbm, ⟨21, _⟩ => ⟨S_, .f32⟩
  | .hbm, ⟨22, _⟩ => ⟨S262144, .f32⟩
  | .hbm, ⟨23, _⟩ => ⟨S262144, .f32⟩
  | .hbm, ⟨24, _⟩ => ⟨S262144, .f32⟩
  | .hbm, ⟨25, _⟩ => ⟨S262144, .f32⟩
  | .hbm, ⟨26, _⟩ => ⟨S262144, .f32⟩
  | .hbm, ⟨27, _⟩ => ⟨S262144, .f32⟩
  | .hbm, ⟨28, _⟩ => ⟨S262144, .f32⟩
  | .hbm, ⟨29, _⟩ => ⟨S262144, .f32⟩
  | .hbm, ⟨30, _⟩ => ⟨S262144, .f32⟩
  | .hbm, ⟨31, _⟩ => ⟨S262144, .f32⟩
  | .hbm, ⟨32, _⟩ => ⟨S262144, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  reducesTo_S262144x128_S262144_d1 : S262144x128.ReducesTo [1] S262144
  h_S_ : 0 < S_.numel
  reducesTo_S262144_S_d0 : S262144.ReducesTo [0] S_

variable [Facts₀]

class Facts : Prop extends Facts₀ where

variable [Facts]
-- ==== Proof.LibBlockSum.lean ====
/-
  A finite sum cut into consecutive blocks of one length.

  Over any commutative additive monoid, the sum of `f` over `Fin N` with `N = J * n` is the sum, over the `J`
  blocks `s`, of the sum over the `n` places `r` inside a block of `f` at the position `n * s + r`. Only
  commutativity and associativity of the addition are used, so the regrouping holds on the extended reals with
  no finiteness assumption. It sets a contraction that is accumulated block by block along the contracted axis
  beside the same contraction taken whole.
-/
import Mathlib.Data.Fintype.BigOperators
import Mathlib.Logic.Equiv.Fin.Basic

namespace Idealize.ShloMosaic.BlockSum

/-- Place `r` of block `s` lies below `J * n`. -/
theorem place_lt {J n : ℕ} (s : Fin J) (r : Fin n) : n * s.val + r.val < J * n := by
  have h1 : n * (s.val + 1) ≤ n * J := Nat.mul_le_mul_left n s.isLt
  have h2 : n * (s.val + 1) = n * s.val + n := Nat.mul_succ n s.val
  have h3 := r.isLt
  rw [Nat.mul_comm J n]
  omega

/-- The sum over `Fin N`, `N = J * n`, block by block: block `s` holds the positions `n * s + r`, `r < n`. -/
theorem sum_blocks {β : Type*} [AddCommMonoid β] {N : ℕ} (J n : ℕ) (hN : N = J * n) (f : Fin N → β) :
    ∑ k : Fin N, f k = ∑ s : Fin J, ∑ r : Fin n, f ⟨n * s.val + r.val, (place_lt s r).trans_eq hN.symm⟩ := by
  subst hN
  rw [← Fintype.sum_prod_type' (f := fun (s : Fin J) (r : Fin n) => f ⟨n * s.val + r.val, place_lt s r⟩)]
  refine (Fintype.sum_equiv finProdFinEquiv _ _ fun x => ?_).symm
  exact congrArg f (Fin.ext (Nat.add_comm _ _))

end Idealize.ShloMosaic.BlockSum
-- ==== Proof.Spec.lean ====
/-
  The quantity both programs compute, stated once over the extended reals.

  For a row r of the three embedding matrices A, P, N (128 columns) and the two-column matrix G:
    d(X, Y, r) = Σ_k (X[r,k] − Y[r,k])²                     (the squared distance of two rows)
    h(g, s)    = e^{−g} · (e^{−g} − e^{−√s})²                 (one half of a sample's loss)
    loss(r)    = h(G[r,0], d(A, P, r)) + h(G[r,1], d(A, N, r))
  and the result is (Σ_r loss(r)) / 262144.

  The second part regroups that sum the way a 16 × 128 table of partial sums holds it: entry (8c, b) holds the
  sum of loss over the rows 131072·c + 4096·s + 128·u + b (s, u < 32), every other entry is 0. Summing the table
  gives Σ_r loss(r): a sum over 262144 = 2·32·32·128 positions cut into consecutive blocks three times, and two
  exchanges of the order of summation. Only commutativity and associativity of + are used, so nothing need be finite.
-/
import Idealize.ShloMosaic.PureOps.Ideal
import Idealize.ShloMosaic.PureOps.Ideal.Laws
import Idealize.ShloMosaic.Lib.ValueIdx
import proofs.«163225_j27144193311431_2_alg».proof.Proof.LibBlockSum

noncomputable section

namespace Cert.Spec

open Idealize.ShloMosaic Idealize.ShloMosaic.ValueIdx Idealize.ShloMosaic.BlockSum

/-- One half of a sample's loss: D · (D − v)² with D = e^{−g} and v = e^{−√s}. -/
def half (g s : EReal) : EReal :=
  Ideal.exp (-g) * ((Ideal.exp (-g) - Ideal.exp (-(Ideal.sqrt s))) * (Ideal.exp (-g) - Ideal.exp (-(Ideal.sqrt s))))

/-- The squared distance between row r of X and row r of Y. -/
def dist2 {R : ℕ} (X Y : (⟨2, ![R, 128]⟩ : Shape).Idx → EReal) (r : Fin R) : EReal :=
  ∑ k : Fin 128, (X (ix2 r k) - Y (ix2 r k)) * (X (ix2 r k) - Y (ix2 r k))

/-- The loss of sample r. -/
def loss {R : ℕ} (A P N : (⟨2, ![R, 128]⟩ : Shape).Idx → EReal) (G : (⟨2, ![R, 2]⟩ : Shape).Idx → EReal)
    (r : Fin R) : EReal :=
  half (G (ix2 r (0 : Fin 2))) (dist2 A P r) + half (G (ix2 r (1 : Fin 2))) (dist2 A N r)

/-- The loss of the sample at a position given as a natural number (0 past the last row). -/
def lossAt {R : ℕ} (A P N : (⟨2, ![R, 128]⟩ : Shape).Idx → EReal) (G : (⟨2, ![R, 2]⟩ : Shape).Idx → EReal)
    (r : ℕ) : EReal :=
  if h : r < R then loss A P N G ⟨r, h⟩ else 0

theorem lossAt_val {R : ℕ} (A P N : (⟨2, ![R, 128]⟩ : Shape).Idx → EReal) (G : (⟨2, ![R, 2]⟩ : Shape).Idx → EReal)
    (r : Fin R) : lossAt A P N G r.val = loss A P N G r := dif_pos r.isLt

/-- The mean loss over the 262144 samples. -/
def mean (A P N : (⟨2, ![262144, 128]⟩ : Shape).Idx → EReal) (G : (⟨2, ![262144, 2]⟩ : Shape).Idx → EReal) : EReal :=
  Ideal.div (∑ r : Fin 262144, loss A P N G r) (Ideal.ofBits .f32 0x48800000#32)

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The sum of f over the 4096 rows of block number t of 64, column b of the 32 × 128 arrangement of a block:
    the rows 4096·t + 128·u + b. -/
def colPart {β : Type*} [AddCommMonoid β] (f : ℕ → β) (t : ℕ) (b : ℕ) : β :=
  ∑ u : Fin 32, f (4096 * t + (128 * u.val + b))

/-- The 16 × 128 table of partial sums: row 8c holds, in column b, the sum over the 32 blocks of half c. -/
def table {β : Type*} [AddCommMonoid β] (f : ℕ → β) (j : (⟨2, ![16, 128]⟩ : Shape).Idx) : β :=
  if (j 0).val % 8 = 0 then ∑ s ∈ Finset.range 32, colPart f (32 * ((j 0).val / 8) + s) (j 1).val else 0

/-- Summing the table gives the sum over all 262144 positions. -/
theorem sum_table {β : Type*} [AddCommMonoid β] (f : ℕ → β) :
    ∑ j : (⟨2, ![16, 128]⟩ : Shape).Idx, table f j = ∑ r : Fin 262144, f r.val := by
  -- the right side, cut into 2 halves, 32 blocks, 32 groups of 128
  have hR : ∑ r : Fin 262144, f r.val
      = ∑ c : Fin 2, ∑ s : Fin 32, ∑ u : Fin 32, ∑ b : Fin 128, f (131072 * c.val + (4096 * s.val + (128 * u.val + b.val))) := by
    rw [sum_blocks 2 131072 rfl (fun r : Fin 262144 => f r.val)]
    refine Finset.sum_congr rfl fun c _ => ?_
    rw [sum_blocks 32 4096 rfl (fun q : Fin 131072 => f (131072 * c.val + q.val))]
    refine Finset.sum_congr rfl fun s _ => ?_
    rw [sum_blocks 32 128 rfl (fun q : Fin 4096 => f (131072 * c.val + (4096 * s.val + q.val)))]
  -- the left side: only the rows 8c are not zero
  have hL : ∑ j : (⟨2, ![16, 128]⟩ : Shape).Idx, table f j
      = ∑ c : Fin 2, ∑ b : Fin 128, ∑ s : Fin 32, ∑ u : Fin 32, f (131072 * c.val + (4096 * s.val + (128 * u.val + b.val))) := by
    rw [sum_idx2, sum_blocks 2 8 rfl (fun a : Fin 16 => ∑ b : Fin 128, table f (ix2 a b))]
    refine Finset.sum_congr rfl fun c _ => ?_
    rw [Finset.sum_eq_single (0 : Fin 8) (fun ρ _ hρ => ?_) (fun h => absurd (Finset.mem_univ _) h)]
    · refine Finset.sum_congr rfl fun b _ => ?_
      have h0 : (8 * c.val + ((0 : Fin 8) : ℕ)) % 8 = 0 := by
        show (8 * c.val + 0) % 8 = 0; omega
      have h1 : (8 * c.val + ((0 : Fin 8) : ℕ)) / 8 = c.val := by
        show (8 * c.val + 0) / 8 = c.val; omega
      show (if (8 * c.val + ((0 : Fin 8) : ℕ)) % 8 = 0 then
          ∑ s ∈ Finset.range 32, colPart f (32 * ((8 * c.val + ((0 : Fin 8) : ℕ)) / 8) + s) b.val else 0) = _
      rw [if_pos h0, h1, Finset.sum_range]
      refine Finset.sum_congr rfl fun s _ => ?_
      unfold colPart
      refine Finset.sum_congr rfl fun u _ => ?_
      refine congrArg f ?_
      have := c.isLt; have := s.isLt
      omega
    · refine Finset.sum_eq_zero fun b _ => ?_
      have hρ' : ρ.val ≠ 0 := fun h => hρ (Fin.ext h)
      have h0 : ¬ (8 * c.val + ρ.val) % 8 = 0 := by
        have := ρ.isLt
        omega
      show (if (8 * c.val + ρ.val) % 8 = 0 then _ else 0) = 0
      rw [if_neg h0]
  rw [hL, hR]
  refine Finset.sum_congr rfl fun c _ => ?_
  rw [Finset.sum_comm]
  refine Finset.sum_congr rfl fun s _ => ?_
  rw [Finset.sum_comm]

end Cert.Spec

end
-- ==== Proof.RefSide.lean ====
/-
  The reference's result is the mean loss.

  Read one operation at a time: a row's norm is the square root of 0 + Σ_k (difference)², which is the squared
  distance of the two rows; each sample's term is then literally the loss of the specification (the host's negate,
  exponential and square root are the functions the specification names); the final reduce adds 0 in front of the
  sum over all samples, and the divisor is the same literal.
-/
import proofs.«163225_j27144193311431_2_alg».proof.Proof.Gen.ReferenceIdeal.Read
import proofs.«163225_j27144193311431_2_alg».proof.Proof.Spec

noncomputable section

namespace Cert.ReferenceIdeal.RefValue

open Cert.ReferenceIdeal Cert.ReferenceIdeal.Read Idealize.ShloMosaic Idealize.ShloMosaic.ValueIdx

/-! The index functions of the layout operations, at an index given by coordinates. -/

theorem idx_v1 (r : Fin 262144) : idx_main_v1 (ix1 r) = ix2 r (0 : Fin 1) :=
  funext fun a => Fin.ext (by match a with | ⟨0, _⟩ => exact Nat.div_one _ | ⟨1, _⟩ => rfl)

theorem idx_v5 (r : Fin 262144) : idx_main_v5 (ix1 r) = ix2 r (0 : Fin 1) :=
  funext fun a => Fin.ext (by match a with | ⟨0, _⟩ => exact Nat.div_one _ | ⟨1, _⟩ => rfl)

theorem idx_v0 (r : Fin 262144) : idx_main_v0 (ix2 r (0 : Fin 1)) = ix2 r (0 : Fin 2) :=
  funext fun a => Fin.ext (by match a with | ⟨0, _⟩ => rfl | ⟨1, _⟩ => rfl)

theorem idx_v4 (r : Fin 262144) : idx_main_v4 (ix2 r (0 : Fin 1)) = ix2 r (1 : Fin 2) :=
  funext fun a => Fin.ext (by match a with | ⟨0, _⟩ => rfl | ⟨1, _⟩ => rfl)

theorem idx_c0 (r : Fin 262144) (k : Fin 128) : idx_main_call0_v1 (ix1 r) k = ix2 r k :=
  funext fun a => Fin.ext (by match a with | ⟨0, _⟩ => rfl | ⟨1, _⟩ => rfl)

theorem idx_c1 (r : Fin 262144) (k : Fin 128) : idx_main_call1_v1 (ix1 r) k = ix2 r k :=
  funext fun a => Fin.ext (by match a with | ⟨0, _⟩ => rfl | ⟨1, _⟩ => rfl)

/-- The first norm's sum of squares at row r is the squared distance of the rows. -/
theorem sumsq0 (x y : Vec Ideal S262144x128 .f32) (r : Fin 262144) :
    val_main_call0_v1 (F := Ideal) x y (ix1 r) = Cert.Spec.dist2 x y r := by
  rw [val_main_call0_v1_apply]
  simp only [idx_c0, val_main_call0_v0_apply, val_main_v8_apply, val_main_call0_cst_apply, Ideal.ofBits_def,
    Ideal.mulf_def, Ideal.subf_def, Ideal.ofBits_zero_f32, zero_add]
  rfl

/-- The second norm's sum of squares likewise. -/
theorem sumsq1 (x y : Vec Ideal S262144x128 .f32) (r : Fin 262144) :
    val_main_call1_v1 (F := Ideal) x y (ix1 r) = Cert.Spec.dist2 x y r := by
  rw [val_main_call1_v1_apply]
  simp only [idx_c1, val_main_call1_v0_apply, val_main_v12_apply, val_main_call1_cst_apply, Ideal.ofBits_def,
    Ideal.mulf_def, Ideal.subf_def, Ideal.ofBits_zero_f32, zero_add]
  rfl

/-- Sample r's term is the specification's loss. -/
theorem sample_eq (x0 x1 x2 : Vec Ideal S262144x128 .f32) (x3 : Vec Ideal S262144x2 .f32) (r : Fin 262144) :
    val_main_v22 (F := Ideal) x0 x1 x2 x3 (ix1 r) = Cert.Spec.loss x0 x1 x2 x3 r := by
  simp only [val_main_v22_apply, val_main_v18_apply, val_main_v21_apply, val_main_v17_apply, val_main_v20_apply,
    val_main_v16_apply, val_main_v19_apply, val_main_v3_apply, val_main_v7_apply, val_main_v11_apply,
    val_main_v15_apply, val_main_v2_apply, val_main_v6_apply, val_main_v10_apply, val_main_v14_apply,
    val_main_v9_apply, val_main_v13_apply, val_main_v1_apply, val_main_v5_apply, val_main_v0_apply,
    val_main_v4_apply, idx_v1, idx_v5, idx_v0, idx_v4, sumsq0, sumsq1, Ideal.addf_def, Ideal.mulf_def,
    Ideal.subf_def, Ideal.hostUnary_exp_def, Ideal.hostUnary_sqrt_def, Ideal.hostNegf_def, Ideal.negf_def]
  rfl

/-- The reference's result, at its one index, is the mean loss. -/
theorem result_eq (x0 x1 x2 : Vec Ideal S262144x128 .f32) (x3 : Vec Ideal S262144x2 .f32) :
    val_main_v24 (F := Ideal) x0 x1 x2 x3 = fun _ => Cert.Spec.mean x0 x1 x2 x3 := by
  funext i
  have hsum : ∑ j : S262144.Idx, val_main_v22 (F := Ideal) x0 x1 x2 x3 j
      = ∑ r : Fin 262144, Cert.Spec.loss x0 x1 x2 x3 r := by
    rw [Cert.Spec.sum_idx1]
    exact Finset.sum_congr rfl fun r _ => sample_eq x0 x1 x2 x3 r
  rw [val_main_v24_apply, val_main_v23_apply, hsum]
  simp only [val_main_cst_apply, val_main_cst_0_apply, Ideal.ofBits_def, Ideal.hostDivf_def,
    Ideal.ofBits_zero_f32, zero_add]
  rfl

end Cert.ReferenceIdeal.RefValue

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibColumnSum.lean ====
/-
  Sums down the columns of a matrix, read at a column: for every extent, a reduction of an [R, n] matrix along its
  first axis is, at column q, the sum over the R rows of the entries (k, q) — for the kernel's
  `vector.multi_reduction <add>` and for the host's `reduce` with an add body (the initial value added in front).
  The companion of the row sums of LibDenseRows.
-/
import Idealize.ShloMosaic.PureOps.Ideal.Laws
import Idealize.ShloMosaic.Lib.ValueIdx
import Idealize.ShloMosaic.Lib.IdealHost

noncomputable section

namespace Idealize.ShloMosaic.ColumnSum

open Idealize.ShloMosaic Idealize.ShloMosaic.ValueIdx

/-- Putting the reduced row coordinate back into a column index: (q) with k inserted on axis 0 is (k, q). -/
theorem lift_col {R n : ℕ} (h : (⟨2, ![R, n]⟩ : Shape).Reduces [0] (⟨1, ![n]⟩ : Shape)) (q : Fin n)
    (k : Fin ((⟨2, ![R, n]⟩ : Shape).size 0)) : h.lift (ix1 q) k = ix2 (⟨k.val, k.isLt⟩ : Fin R) q := by
  funext c; apply Fin.ext
  fin_cases c <;> rfl

/-- The kernel's sum down the columns of an [R, n] matrix, at column q: the sum of that column's R entries. -/
theorem kernelColSum_apply {R n : ℕ} {φ : FTy} (src : FVec Ideal ⟨2, ![R, n]⟩ φ) (acc : BitVec φ.bits)
    (h : (⟨2, ![R, n]⟩ : Shape).Reduces [0] (⟨1, ![n]⟩ : Shape)) (hφ : FKind.Formats φ) (hacc : acc = FKind.add.neutral φ hφ)
    (q : Fin n) :
    multiReduction .add [0] ⟨1, ![n]⟩ src acc h hφ hacc (ix1 q) = ∑ k : Fin R, src (ix2 k q) := by
  rw [Ideal.multiReduction_add_single src acc h hφ hacc (ix1 q)]
  exact Finset.sum_congr rfl fun k _ => congrArg src (lift_col h q k)

/-- The host's sum down the columns, at column q: the initial value plus the sum of that column's entries. -/
theorem hostColSum_apply {R n : ℕ} (x : (⟨2, ![R, n]⟩ : Shape).Idx → EReal) (init : EReal)
    (h' : (⟨2, ![R, n]⟩ : Shape).ReducesTo [0] (⟨1, ![n]⟩ : Shape)) (h : (⟨2, ![R, n]⟩ : Shape).Reduces [0] (⟨1, ![n]⟩ : Shape))
    (q : Fin n) :
    Ideal.hostReduceAdd h' x init (ix1 q) = init + ∑ k : Fin R, x (ix2 k q) := by
  rw [Ideal.hostReduceAdd_single h' h x init (ix1 q)]
  exact congrArg (init + ·) (Finset.sum_congr rfl fun k _ => congrArg x (lift_col h q k))

end Idealize.ShloMosaic.ColumnSum

end
-- ==== Proof.LibTallColumn.lean ====
/-
  A tall column regrouped as a matrix, and the sums along the rows of a matrix, read at an index given by
  coordinates, for every extent.

  An [n, 1] column with n = a·b cast to an [a, b] matrix keeps the row-major order, so the matrix's entry (u, v) is
  the column's entry of row b·u + v. A reduction of an [R, n] matrix along its second axis is, at row p, the sum over
  that row's n entries (the companion of the sums down the columns).
-/
import Idealize.ShloMosaic.Lib.Pipeline.Value
import Idealize.ShloMosaic.Lib.ValueIdx
import Idealize.ShloMosaic.PureOps.Ideal.Laws

noncomputable section

namespace TallColumn

open Idealize.ShloMosaic Idealize.ShloMosaic.ValueIdx

variable {α : Type}

/-- An [n, 1] column cast to an [a, b] matrix reads, at (u, v), the column's entry of row q = b·u + v: both indices
    have row-major position b·u + v. -/
theorem shapeCast_n1_ab_apply {n a b : ℕ} (x : (⟨2, ![n, 1]⟩ : Shape).Idx → α)
    (h : (⟨2, ![n, 1]⟩ : Shape).ShapeCasts ⟨2, ![a, b]⟩) (u : Fin a) (v : Fin b) (q : Fin n)
    (hq : q.val = b * u.val + v.val) : shapeCast ⟨2, ![a, b]⟩ x h (ix2 u v) = x (ix2 q (0 : Fin 1)) :=
  shapeCast_apply x h _ _ (by
    rw [Shape.rowMajor_val_two, Shape.rowMajor_val_two]
    show q.val * 1 + 0 = u.val * b + v.val
    rw [hq, Nat.mul_one, Nat.add_zero, Nat.mul_comm])

/-- Putting the reduced column coordinate back into a row index: (p) with k inserted on axis 1 is (p, k). -/
theorem lift_row {R n : ℕ} (h : (⟨2, ![R, n]⟩ : Shape).Reduces [1] (⟨1, ![R]⟩ : Shape)) (p : Fin R)
    (k : Fin ((⟨2, ![R, n]⟩ : Shape).size 1)) : h.lift (ix1 p) k = ix2 p (⟨k.val, k.isLt⟩ : Fin n) := by
  funext c; apply Fin.ext
  fin_cases c <;> rfl

/-- The sum along the rows of an [R, n] matrix, at row p: the sum of that row's n entries. -/
theorem kernelRowSum_apply {R n : ℕ} {φ : FTy} (src : FVec Ideal ⟨2, ![R, n]⟩ φ) (acc : BitVec φ.bits)
    (h : (⟨2, ![R, n]⟩ : Shape).Reduces [1] (⟨1, ![R]⟩ : Shape)) (hφ : FKind.Formats φ)
    (hacc : acc = FKind.add.neutral φ hφ) (p : Fin R) :
    multiReduction .add [1] ⟨1, ![R]⟩ src acc h hφ hacc (ix1 p) = ∑ k : Fin n, src (ix2 p k) := by
  rw [Ideal.multiReduction_add_single src acc h hφ hacc (ix1 p)]
  exact Finset.sum_congr rfl fun k _ => congrArg src (lift_row h p k)

end TallColumn

end
-- ==== Proof.KernelPayload.lean ====
/-
  What the kernel's body computes from one block of 4096 rows, read at an index.

  The body takes the squared distances of the block's rows (a sum along each row), lays those 4096 numbers and the
  two columns of the fourth operand out as 32 × 128 matrices (entry (u, b) is row 128·u + b of the block), and forms
  the two halves of each sample's loss there, pointwise. The only difference from the specification's wording is the
  negation, written 0 − x. The value stored is row 0 of the 8 × 128 accumulator plus the sums down the 128
  columns of the 32 × 128 matrix of losses.
-/
import proofs.«163225_j27144193311431_2_alg».proof.Proof.Gen.KernelIdeal.Skeleton
import proofs.«163225_j27144193311431_2_alg».proof.Proof.Spec
import proofs.«163225_j27144193311431_2_alg».proof.Proof.LibColumn
import proofs.«163225_j27144193311431_2_alg».proof.Proof.LibColumnSum
import proofs.«163225_j27144193311431_2_alg».proof.Proof.LibTallColumn
import Idealize.ShloMosaic.Lib.ValueLayout

noncomputable section

namespace Cert.KernelIdeal.KValue

open Cert.KernelIdeal Cert.KernelIdeal.Gen Idealize.ShloMosaic Idealize.ShloMosaic.ValueIdx

/-- Row 128·u + b of a block: the row that entry (u, b) of the 32 × 128 arrangement comes from. -/
def row (u : Fin 32) (b : Fin 128) : Fin 4096 :=
  ⟨128 * u.val + b.val, by have := u.isLt; have := b.isLt; omega⟩

/-- The pointwise part of one half, on 32 × 128 matrices: g the matrix of the fourth operand's column, s the
    matrix of squared distances. -/
def halfV (g s : FVec Ideal S32x128 .f32) : FVec Ideal S32x128 .f32 :=
  mulf (exp (subf (broadcast S32x128 (Scalar.ofBits (F := Ideal) .f32 0x00000000#32)) g))
    (mulf
      (subf (exp (subf (broadcast S32x128 (Scalar.ofBits (F := Ideal) .f32 0x00000000#32)) g))
        (exp (subf (broadcast S32x128 (Scalar.ofBits (F := Ideal) .f32 0x00000000#32)) (sqrt s))))
      (subf (exp (subf (broadcast S32x128 (Scalar.ofBits (F := Ideal) .f32 0x00000000#32)) g))
        (exp (subf (broadcast S32x128 (Scalar.ofBits (F := Ideal) .f32 0x00000000#32)) (sqrt s)))))

/-- Entry by entry it is the specification's half: 0 − x is −x on the extended reals. -/
theorem halfV_apply (g s : FVec Ideal S32x128 .f32) (i : S32x128.Idx) :
    halfV g s i = Cert.Spec.half (g i) (s i) := by
  simp only [halfV, Cert.Spec.half, mulf, subf, exp, sqrt, broadcast, Scalar.ofBits, Ideal.mulf_def, Ideal.subf_def,
    Ideal.exp_def, Ideal.sqrt_def, Ideal.ofBits_def, Ideal.ofBits_zero_f32, zero_sub]

/-- A column of the fourth operand, laid out as 32 × 128, at (u, b): the operand's entry of row 128·u + b. -/
theorem gcol_apply (x3 : Vec Ideal S4096x2 .f32) (o : ℕ) (k : Fin 2) (hk : k.val = o)
    (hs : S4096x2.Slices ![0, o] S4096x1) (hc : S4096x1.ShapeCasts S32x128) (u : Fin 32) (b : Fin 128) :
    shapeCast S32x128 (extractStridedSlice S4096x1 ![0, o] x3 hs) hc (ix2 u b) = x3 (ix2 (row u b) k) :=
  (TallColumn.shapeCast_n1_ab_apply _ hc u b (row u b) rfl).trans
    (slice2_axis1_apply o x3 hs (row u b) (0 : Fin 1) k (by rw [hk]; rfl))

/-- The squared distances of the rows of two blocks, laid out as 32 × 128, at (u, b): that of row 128·u + b. -/
theorem dist_apply (x y : FVec Ideal S4096x128 .f32) (hr : S4096x128.Reduces [1] S4096)
    (hacc : (0x00000000#32 : BitVec (FTy.f32).bits) = FKind.add.neutral .f32 (.inl rfl))
    (h1 : S4096.ShapeCasts S4096x1) (hc : S4096x1.ShapeCasts S32x128) (u : Fin 32) (b : Fin 128) :
    shapeCast S32x128 (shapeCast S4096x1
        (multiReduction (F := Ideal) .add [1] S4096 (mulf (subf x y) (subf x y)) 0x00000000#32 hr (.inl rfl) hacc) h1) hc (ix2 u b)
      = Cert.Spec.dist2 x y (row u b) :=
  (TallColumn.shapeCast_n1_ab_apply _ hc u b (row u b) rfl).trans
    ((ColumnLayout.shapeCast_a_a1_apply _ h1 (row u b) (0 : Fin 1)).trans
      (TallColumn.kernelRowSum_apply _ _ hr _ hacc (row u b)))

/-- The first half's payload at (u, b): the half of row 128·u + b, from column 0 and the first two blocks. -/
theorem pay3_apply (x0 x1 : Vec Ideal S4096x128 .f32) (x3 : Vec Ideal S4096x2 .f32) (u : Fin 32) (b : Fin 128) :
    k0_pay3 (F := Ideal) x0 x1 x3 (ix2 u b)
      = Cert.Spec.half (x3 (ix2 (row u b) (0 : Fin 2))) (Cert.Spec.dist2 x0 x1 (row u b)) := by
  have e : k0_pay3 (F := Ideal) x0 x1 x3
      = halfV (shapeCast S32x128 (extractStridedSlice S4096x1 ![0, 0] x3 slices_S4096x2_o0_0_S4096x1) shapeCasts_S4096x1_S32x128)
          (shapeCast S32x128 (shapeCast S4096x1
            (multiReduction (F := Ideal) .add [1] S4096 (mulf (subf x0 x1) (subf x0 x1)) 0x00000000#32 reduces_S4096x128_S4096 (.inl rfl) rfl)
            shapeCasts_S4096_S4096x1) shapeCasts_S4096x1_S32x128) := rfl
  rw [e, halfV_apply]
  exact congrArg₂ Cert.Spec.half (gcol_apply x3 0 0 rfl _ _ u b) (dist_apply x0 x1 _ rfl _ _ u b)

/-- The second half's payload at (u, b): from column 1 and the first and third blocks. -/
theorem pay4_apply (x0 x2 : Vec Ideal S4096x128 .f32) (x3 : Vec Ideal S4096x2 .f32) (u : Fin 32) (b : Fin 128) :
    k0_pay4 (F := Ideal) x0 x2 x3 (ix2 u b)
      = Cert.Spec.half (x3 (ix2 (row u b) (1 : Fin 2))) (Cert.Spec.dist2 x0 x2 (row u b)) := by
  have e : k0_pay4 (F := Ideal) x0 x2 x3
      = halfV (shapeCast S32x128 (extractStridedSlice S4096x1 ![0, 1] x3 slices_S4096x2_o0_1_S4096x1) shapeCasts_S4096x1_S32x128)
          (shapeCast S32x128 (shapeCast S4096x1
            (multiReduction (F := Ideal) .add [1] S4096 (mulf (subf x0 x2) (subf x0 x2)) 0x00000000#32 reduces_S4096x128_S4096 (.inl rfl) rfl)
            shapeCasts_S4096_S4096x1) shapeCasts_S4096x1_S32x128) := rfl
  rw [e, halfV_apply]
  exact congrArg₂ Cert.Spec.half (gcol_apply x3 1 1 rfl _ _ u b) (dist_apply x0 x2 _ rfl _ _ u b)

/-- The stored row at column b: what row 0 held plus the sum down column b of the two matrices' sum. -/
theorem pay1_apply (v37 v40 : FVec Ideal S32x128 .f32) (v44 : Vec Ideal S1x128 .f32) (b : Fin 128) :
    k0_pay1 (F := Ideal) v37 v40 v44 (ix2 (0 : Fin 1) b)
      = v44 (ix2 (0 : Fin 1) b) + ∑ u : Fin 32, (v37 (ix2 u b) + v40 (ix2 u b)) := by
  have e1 : shapeCast S1x128 v44 shapeCasts_S1x128_S1x128 = v44 := shapeCast_self _ _
  have e2 : shapeCast S1x128 (multiReduction (F := Ideal) .add [0] S128 (addf v37 v40) 0x00000000#32 reduces_S32x128_S128 (.inl rfl) rfl)
        shapeCasts_S128_S1x128 (ix2 (0 : Fin 1) b) = ∑ u : Fin 32, (v37 (ix2 u b) + v40 (ix2 u b)) :=
    (shapeCast_a_1a_apply _ shapeCasts_S128_S1x128 (0 : Fin 1) b).trans
      (ColumnSum.kernelColSum_apply (addf v37 v40) _ reduces_S32x128_S128 _ rfl b)
  show (shapeCast S1x128 v44 shapeCasts_S1x128_S1x128) (ix2 (0 : Fin 1) b)
      + (shapeCast S1x128 (multiReduction (F := Ideal) .add [0] S128 (addf v37 v40) 0x00000000#32 reduces_S32x128_S128 (.inl rfl) rfl)
        shapeCasts_S128_S1x128) (ix2 (0 : Fin 1) b) = _
  rw [e1, e2]

/-- The loss of the block's row 128·u + b, from the two payloads. -/
theorem pays_apply (x0 x1 x2 : Vec Ideal S4096x128 .f32) (x3 : Vec Ideal S4096x2 .f32) (u : Fin 32) (b : Fin 128) :
    k0_pay3 (F := Ideal) x0 x1 x3 (ix2 u b) + k0_pay4 (F := Ideal) x0 x2 x3 (ix2 u b)
      = Cert.Spec.loss x0 x1 x2 x3 (row u b) := by
  rw [pay3_apply, pay4_apply]
  rfl

/-- The zero block the first point of each half stores. -/
theorem pay2_apply (y : S8x128.Idx) : k0_pay2 (F := Ideal) y = 0 :=
  Ideal.ofBits_zero_f32

end Cert.KernelIdeal.KValue

end
-- ==== Proof.LibCanonUnit.lean ====
/-
  The contents a list of stores leaves (`View.canon`), read at an index, when the newest store's rectangle is
  a unit-stride box given by offsets and sizes: inside the box the newest payload at the index less the offsets,
  outside it what the older stores left. Stated over abstract offsets and sizes.
-/
import Idealize.ShloMosaic.Lib.Pipeline.FrameBody

namespace Idealize.ShloMosaic

namespace View

variable {s : Shape} {e : EltTy} {Val : EltTy → Type}

/-- Inside the newest store's box: its payload at the local index. -/
theorem canon_cons_unit_of_mem [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    View.canon ((⟨Rect.unit off size inb, w⟩ : Piece Val s e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : Piece Val s e) :: L)) hy.symm).trans
    (View.canon_cons_emb (Rect.unit off size inb) w L x)

/-- Outside the newest store's box on some axis: what the older stores left. -/
theorem canon_cons_unit_of_not_mem [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    View.canon ((⟨Rect.unit off size inb, w⟩ : Piece Val s e) :: L) y = View.canon L y := by
  refine View.canon_cons_of_not_mem _ L (fun hm => ?_)
  have h := (Rect.mem_set_unit (inb := inb)).mp hm a
  omega

end View

end Idealize.ShloMosaic
-- ==== Proof.Cases.lean ====
/-
  What one run of the body leaves in the 8 × 128 accumulator block, read at an index.

  At the first point of each half of the grid the body stores the zero block, reads row 0 of it back, and stores
  into row 0 that row plus the column sums of the block's losses: row 0 ends at 0 + (column sums), rows 1 to 7 at 0.
  At every other point only row 0 is stored, as what it held plus the column sums; rows 1 to 7 keep what they held.
-/
import proofs.«163225_j27144193311431_2_alg».proof.Proof.Gen.KernelIdeal.Frame
import proofs.«163225_j27144193311431_2_alg».proof.Proof.KernelPayload
import proofs.«163225_j27144193311431_2_alg».proof.Proof.LibCanonUnit
import Idealize.ShloMosaic.Lib.WritesUnit
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Tactic Idealize.ShloMosaic.ValueIdx

theorem hz : (![0, 0] : Fin 2 → Nat) = fun _ => 0 := funext fun a => by fin_cases a <;> rfl

/-- The sum of the losses of the block's rows 128·u + b, u < 32: column b of the 32 × 128 arrangement. -/
def blockCol (x0 x1 x2 : Vec Ideal S4096x128 .f32) (x3 : Vec Ideal S4096x2 .f32) (b : Fin 128) : EReal :=
  ∑ u : Fin 32, Cert.Spec.loss x0 x1 x2 x3 (row u b)

/-- The first point of a half: row 0 ends at 0 + the column sums, the other rows at 0. -/
theorem out_A_apply (c : Dev nD) (i : grid0.Coords) (a2 : Memref sig .tc .vmem S4096x128 .f32) (h2 : a2.IsWhole) (a3 : Memref sig .tc .vmem S4096x128 .f32) (h3 : a3.IsWhole) (a4 : Memref sig .tc .vmem S4096x128 .f32) (h4 : a4.IsWhole) (a5 : Memref sig .tc .vmem S4096x2 .f32) (h5 : a5.IsWhole) (a6 : Memref sig .tc .vmem S8x128 .f32) (h6 : a6.IsWhole) (hc : cond0_0 i)
    (x0 x1 x2 : Vec Ideal S4096x128 .f32) (x3 : Vec Ideal S4096x2 .f32) (ρ : Fin 8) (b : Fin 128) :
    out0_A_4 (F := Ideal) c i a2 h2 a3 h3 a4 h4 a5 h5 a6 h6 hc x0 x1 x2 x3 (ix2 ρ b)
      = if ρ.val = 0 then 0 + blockCol x0 x1 x2 x3 b else 0 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  simp only [View.readAt_eq_ld, h2.read_unread, h3.read_unread, h4.read_unread, h5.read_unread,
    View.ld_unit_zero (S := S4096x128) hz, View.ld_unit_zero (S := S4096x2) hz]
  by_cases hρ : ρ.val = 0
  · rw [if_pos hρ]
    refine (View.canon_cons_unit_of_mem _ _ _ (ix2 ρ b) (ix2 (0 : Fin 1) b) (fun a => ?_)).trans ?_
    · match a with
      | ⟨0, _⟩ => show ρ.val = 0 + 0; omega
      | ⟨1, _⟩ => show b.val = 0 + b.val; omega
    · refine (pay1_apply _ _ _ b).trans ?_
      refine congrArg₂ (· + ·) ?_ (Finset.sum_congr rfl fun u _ => pays_apply x0 x1 x2 x3 u b)
      rw [View.readCov_eq_canon']
      show View.canon _ _ = 0
      rw [View.canon_unit_zero hz]
      exact pay2_apply _
  · rw [if_neg hρ]
    refine (View.canon_cons_unit_of_not_mem _ _ _ (ix2 ρ b) (0 : Fin 2) (Or.inr ?_)).trans ?_
    · show 0 + 1 ≤ ρ.val; omega
    · rw [View.canon_unit_zero hz]
      exact pay2_apply _

/-- Any other point: row 0 gains the column sums, the other rows keep what they held. -/
theorem out_B_apply (c : Dev nD) (i : grid0.Coords) (a2 : Memref sig .tc .vmem S4096x128 .f32) (h2 : a2.IsWhole) (a3 : Memref sig .tc .vmem S4096x128 .f32) (h3 : a3.IsWhole) (a4 : Memref sig .tc .vmem S4096x128 .f32) (h4 : a4.IsWhole) (a5 : Memref sig .tc .vmem S4096x2 .f32) (h5 : a5.IsWhole) (a6 : Memref sig .tc .vmem S8x128 .f32) (h6 : a6.IsWhole) (hc : ¬cond0_0 i)
    (x0 x1 x2 : Vec Ideal S4096x128 .f32) (x3 : Vec Ideal S4096x2 .f32) (xo : Vec Ideal S8x128 .f32) (ρ : Fin 8) (b : Fin 128) :
    out0_B_4 (F := Ideal) c i a2 h2 a3 h3 a4 h4 a5 h5 a6 h6 hc x0 x1 x2 x3 xo (ix2 ρ b)
      = if ρ.val = 0 then xo (ix2 ρ b) + blockCol x0 x1 x2 x3 b else xo (ix2 ρ b) := by
  unfold out0_B_4
  unfold kernelRun0_B
  dsimp only
  sl_unfold_words
  simp only [View.readAt_eq_ld, h2.read_unread, h3.read_unread, h4.read_unread, h5.read_unread,
    View.ld_unit_zero (S := S4096x128) hz, View.ld_unit_zero (S := S4096x2) hz]
  by_cases hρ : ρ.val = 0
  · rw [if_pos hρ]
    refine (View.read_writes_cons_unit_of_mem a6.view _ _ _ _ (ix2 ρ b) (ix2 (0 : Fin 1) b) rfl (fun a => ?_)).trans ?_
    · match a with
      | ⟨0, _⟩ => show ρ.val = 0 + 0; omega
      | ⟨1, _⟩ => show b.val = 0 + b.val; omega
    · refine (pay1_apply _ _ _ b).trans ?_
      refine congrArg₂ (· + ·) ?_ (Finset.sum_congr rfl fun u _ => pays_apply x0 x1 x2 x3 u b)
      show View.ld (View.read (Elt Ideal) a6.view (h6.unread xo)) (Rect.unit ![0, 0] ![1, 128] _) (ix2 (0 : Fin 1) b)
        = xo (ix2 ρ b)
      rw [h6.read_unread]
      show xo _ = xo (ix2 ρ b)
      refine congrArg xo (funext fun a => Fin.ext ?_)
      match a with
      | ⟨0, _⟩ => show 0 + 1 * 0 = ρ.val; omega
      | ⟨1, _⟩ => show 0 + 1 * b.val = b.val; omega
  · rw [if_neg hρ]
    refine (View.read_writes_cons_unit_of_not_mem a6.view _ _ _ _ (ix2 ρ b) rfl (0 : Fin 2) (Or.inr ?_)).trans ?_
    · show 0 + 1 ≤ ρ.val; omega
    · show a6.view.read (Elt Ideal) (h6.unread xo) (ix2 ρ b) = _
      rw [h6.read_unread]

end Cert.KernelIdeal.KValue

end
-- ==== Proof.Blocks.lean ====
/-
  The windows' blocks at a grid point, read at an index.

  The index maps send grid point t = 32·c + i to block row t of each of the four inputs (blocks of 4096 rows) and
  to block row c = t / 32 of the 16 × 128 output (blocks of 8 rows): decided once over the 64 points. So entry (q, k)
  of an input block at point t is the array's entry (4096·t + q, k), the loss of the block's row q is the loss of
  the arrays' row 4096·t + q, and the sum of a block's losses over the rows 128·u + b is the specification's
  column part at (t, b).
-/
import proofs.«163225_j27144193311431_2_alg».proof.Proof.Gen.KernelIdeal.Frame.Runs
import proofs.«163225_j27144193311431_2_alg».proof.Proof.KernelPayload

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The inputs' index maps: block row t, block column 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The output's index map: block row t / 32, block column 0. -/
theorem idx_out : ∀ t : Fin cfg0.N, win0_4.index t (0 : Fin 2) = t.val / 32 ∧ win0_4.index t (1 : Fin 2) = 0 :=
  (by decide +kernel : ∀ t : Fin grid0.N, _)

/-- The first operand's block at point t, at (q, k): the array at (4096·t + q, k). -/
theorem iblk0_apply (c : Dev nD) (t : Fin cfg0.N) (q : Fin 4096) (k : Fin 128) (r : Fin 262144)
    (hr : r.val = 4096 * t.val + q.val) :
    (iblk m c 0 t : Vec Ideal S4096x128 .f32) (ix2 q k) = m ((c : Thread nD τ).loc main_arg0) (ix2 r k) := by
  obtain ⟨e0, e1, -⟩ := idx_in t
  unfold iblk
  rw [View.read_apply]
  show m ((c : Thread nD τ).loc main_arg0) (((cfg0.win 0).blk t).view.emb (ix2 q k)) = _
  refine congrArg (m ((c : Thread nD τ).loc main_arg0)) (funext fun a => Fin.ext ?_)
  match a with
  | ⟨0, _⟩ => show win0_0.index t (0 : Fin 2) * 4096 + 1 * q.val = r.val; rw [e0, hr]; omega
  | ⟨1, _⟩ => show win0_0.index t (1 : Fin 2) * 128 + 1 * k.val = k.val; rw [e1]; omega

/-- The second operand's block likewise. -/
theorem iblk1_apply (c : Dev nD) (t : Fin cfg0.N) (q : Fin 4096) (k : Fin 128) (r : Fin 262144)
    (hr : r.val = 4096 * t.val + q.val) :
    (iblk m c 1 t : Vec Ideal S4096x128 .f32) (ix2 q k) = m ((c : Thread nD τ).loc main_arg1) (ix2 r k) := by
  obtain ⟨-, -, e0, e1, -⟩ := idx_in t
  unfold iblk
  rw [View.read_apply]
  show m ((c : Thread nD τ).loc main_arg1) (((cfg0.win 1).blk t).view.emb (ix2 q k)) = _
  refine congrArg (m ((c : Thread nD τ).loc main_arg1)) (funext fun a => Fin.ext ?_)
  match a with
  | ⟨0, _⟩ => show win0_1.index t (0 : Fin 2) * 4096 + 1 * q.val = r.val; rw [e0, hr]; omega
  | ⟨1, _⟩ => show win0_1.index t (1 : Fin 2) * 128 + 1 * k.val = k.val; rw [e1]; omega

/-- The third operand's block likewise. -/
theorem iblk2_apply (c : Dev nD) (t : Fin cfg0.N) (q : Fin 4096) (k : Fin 128) (r : Fin 262144)
    (hr : r.val = 4096 * t.val + q.val) :
    (iblk m c 2 t : Vec Ideal S4096x128 .f32) (ix2 q k) = m ((c : Thread nD τ).loc main_arg2) (ix2 r k) := by
  obtain ⟨-, -, -, -, e0, e1, -⟩ := idx_in t
  unfold iblk
  rw [View.read_apply]
  show m ((c : Thread nD τ).loc main_arg2) (((cfg0.win 2).blk t).view.emb (ix2 q k)) = _
  refine congrArg (m ((c : Thread nD τ).loc main_arg2)) (funext fun a => Fin.ext ?_)
  match a with
  | ⟨0, _⟩ => show win0_2.index t (0 : Fin 2) * 4096 + 1 * q.val = r.val; rw [e0, hr]; omega
  | ⟨1, _⟩ => show win0_2.index t (1 : Fin 2) * 128 + 1 * k.val = k.val; rw [e1]; omega

/-- The fourth operand's block (two columns) likewise. -/
theorem iblk3_apply (c : Dev nD) (t : Fin cfg0.N) (q : Fin 4096) (k : Fin 2) (r : Fin 262144)
    (hr : r.val = 4096 * t.val + q.val) :
    (iblk m c 3 t : Vec Ideal S4096x2 .f32) (ix2 q k) = m ((c : Thread nD τ).loc main_arg3) (ix2 r k) := by
  obtain ⟨-, -, -, -, -, -, e0, e1⟩ := idx_in t
  unfold iblk
  rw [View.read_apply]
  show m ((c : Thread nD τ).loc main_arg3) (((cfg0.win 3).blk t).view.emb (ix2 q k)) = _
  refine congrArg (m ((c : Thread nD τ).loc main_arg3)) (funext fun a => Fin.ext ?_)
  match a with
  | ⟨0, _⟩ => show win0_3.index t (0 : Fin 2) * 4096 + 1 * q.val = r.val; rw [e0, hr]; omega
  | ⟨1, _⟩ => show win0_3.index t (1 : Fin 2) * 2 + 1 * k.val = k.val; rw [e1]; omega

/-- The loss of a row depends only on that row's entries: two families of matrices that agree on row q of the one
    and row r of the other have the same loss there. -/
theorem loss_congr {R R' : ℕ} (x0 x1 x2 : (⟨2, ![R, 128]⟩ : Shape).Idx → EReal) (x3 : (⟨2, ![R, 2]⟩ : Shape).Idx → EReal)
    (A P N : (⟨2, ![R', 128]⟩ : Shape).Idx → EReal) (G : (⟨2, ![R', 2]⟩ : Shape).Idx → EReal) (q : Fin R) (r : Fin R')
    (h0 : ∀ k, x0 (ix2 q k) = A (ix2 r k)) (h1 : ∀ k, x1 (ix2 q k) = P (ix2 r k))
    (h2 : ∀ k, x2 (ix2 q k) = N (ix2 r k)) (h3 : ∀ k, x3 (ix2 q k) = G (ix2 r k)) :
    Cert.Spec.loss x0 x1 x2 x3 q = Cert.Spec.loss A P N G r := by
  unfold Cert.Spec.loss Cert.Spec.dist2
  simp only [h0, h1, h2, h3]

/-- The sum over the rows 128·u + b of the blocks at point t is the column part at (t, b) of the arrays' losses. -/
theorem blockSum_eq (c : Dev nD) (t : Fin cfg0.N) (b : Fin 128) :
    ∑ u : Fin 32, Cert.Spec.loss (iblk m c 0 t : Vec Ideal S4096x128 .f32) (iblk m c 1 t : Vec Ideal S4096x128 .f32)
        (iblk m c 2 t : Vec Ideal S4096x128 .f32) (iblk m c 3 t : Vec Ideal S4096x2 .f32) (row u b)
      = Cert.Spec.colPart (Cert.Spec.lossAt (m ((c : Thread nD τ).loc main_arg0)) (m ((c : Thread nD τ).loc main_arg1))
          (m ((c : Thread nD τ).loc main_arg2)) (m ((c : Thread nD τ).loc main_arg3))) t.val b.val := by
  have hN : t.val < 64 := lt_of_lt_of_eq t.isLt (show cfg0.N = 64 from N_0)
  unfold Cert.Spec.colPart
  refine Finset.sum_congr rfl fun u _ => ?_
  have hlt : 4096 * t.val + (128 * u.val + b.val) < 262144 := by
    have := u.isLt; have := b.isLt; omega
  have hr : (⟨4096 * t.val + (128 * u.val + b.val), hlt⟩ : Fin 262144).val = 4096 * t.val + (row u b).val := rfl
  exact (loss_congr _ _ _ _ _ _ _ _ (row u b) ⟨4096 * t.val + (128 * u.val + b.val), hlt⟩
    (fun k => iblk0_apply m c t (row u b) k _ hr) (fun k => iblk1_apply m c t (row u b) k _ hr)
    (fun k => iblk2_apply m c t (row u b) k _ hr) (fun k => iblk3_apply m c t (row u b) k _ hr)).trans
    (Cert.Spec.lossAt_val _ _ _ _ (⟨4096 * t.val + (128 * u.val + b.val), hlt⟩ : Fin 262144)).symm

end Cert.KernelIdeal.KValue

end
-- ==== Proof.Accum.lean ====
/-
  The accumulator across the grid, and the 16 × 128 array the region leaves.

  Grid point t = 32·c + i adds, into row 0 of block c of the output, the column sums of the losses of input block t.
  By induction on the point: after point n, row 0 of the staging block holds, in column b, the sum of the column
  parts of the points n − n mod 32, …, n (those of n's half so far), and rows 1 to 7 hold 0. A block is written back
  after the last point of its half (n mod 32 = 31), when row 0 holds the sum over the half's 32 points: that is the
  specification's table, block by block, and the two write-backs cover the array.
-/
import proofs.«163225_j27144193311431_2_alg».proof.Proof.Gen.KernelIdeal.Frame
import proofs.«163225_j27144193311431_2_alg».proof.Proof.Cases
import proofs.«163225_j27144193311431_2_alg».proof.Proof.Blocks

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The loss of the arguments' sample at a position, on core c. -/
abbrev lossOf (c : Dev nD) : ℕ → EReal :=
  Cert.Spec.lossAt (m ((c : Thread nD τ).loc main_arg0)) (m ((c : Thread nD τ).loc main_arg1))
    (m ((c : Thread nD τ).loc main_arg2)) (m ((c : Thread nD τ).loc main_arg3))

/-- The specification's 16 × 128 table of the arguments' losses, on core c. -/
abbrev tableOf (c : Dev nD) : S16x128.Idx → EReal := Cert.Spec.table (lossOf m c)

/-- One point's effect on the staging block: at the first point of a half, row 0 is 0 + the point's column part and
    the other rows 0; at any other point row 0 gains the column part and the other rows are kept. -/
theorem step (c : Dev nD) (t : Fin cfg0.N) (ρ : Fin 8) (b : Fin 128) :
    outsAt0 m c t.val t.isLt (ix2 ρ b) =
      if t.val % 32 = 0 then (if ρ.val = 0 then 0 + Cert.Spec.colPart (lossOf m c) t.val b.val else 0)
      else (if ρ.val = 0 then
          outsAt0 m c (t.val - 1) (Nat.lt_of_le_of_lt (Nat.sub_le _ _) t.isLt) (ix2 ρ b)
            + Cert.Spec.colPart (lossOf m c) t.val b.val
        else outsAt0 m c (t.val - 1) (Nat.lt_of_le_of_lt (Nat.sub_le _ _) t.isLt) (ix2 ρ b)) := by
  by_cases h0 : t.val % 32 = 0
  · rw [if_pos h0, outsAt0_A m c t h0]
    refine (out_A_apply c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t) (iblk m c 3 t) ρ b).trans ?_
    unfold blockCol
    rw [blockSum_eq m c t b]
  · rw [if_neg h0, outsAt0_B m c t h0]
    refine (out_B_apply c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk m c 0 t) (iblk m c 1 t) (iblk m c 2 t) (iblk m c 3 t)
      (outsAt0 m c (t.val - 1) (Nat.lt_of_le_of_lt (Nat.sub_le _ _) t.isLt)) ρ b).trans ?_
    unfold blockCol
    rw [blockSum_eq m c t b]

/-- The invariant at the first point of a half. -/
theorem inv_first (c : Dev nD) (n : ℕ) (h : n < cfg0.N) (h0 : n % 32 = 0) (ρ : Fin 8) (b : Fin 128) :
    outsAt0 m c n h (ix2 ρ b)
      = if ρ.val = 0 then ∑ s ∈ Finset.range (n % 32 + 1), Cert.Spec.colPart (lossOf m c) (n - n % 32 + s) b.val else 0 := by
  have e := step m c ⟨n, h⟩ ρ b
  dsimp only at e
  rw [e, if_pos h0, h0]
  by_cases hρ : ρ.val = 0
  · rw [if_pos hρ, if_pos hρ, Finset.sum_range_one, zero_add]
    rfl
  · rw [if_neg hρ, if_neg hρ]

/-- THE INVARIANT: after point n, row 0 holds the sum of the column parts of the points of n's half up to n, the
    other rows hold 0. -/
theorem outsAt_apply (c : Dev nD) : ∀ (n : ℕ) (h : n < cfg0.N) (ρ : Fin 8) (b : Fin 128),
    outsAt0 m c n h (ix2 ρ b)
      = if ρ.val = 0 then ∑ s ∈ Finset.range (n % 32 + 1), Cert.Spec.colPart (lossOf m c) (n - n % 32 + s) b.val else 0
  | 0, h, ρ, b => inv_first m c 0 h rfl ρ b
  | n + 1, h, ρ, b => by
    by_cases h0 : (n + 1) % 32 = 0
    · exact inv_first m c (n + 1) h h0 ρ b
    · have e := step m c ⟨n + 1, h⟩ ρ b
      dsimp only at e
      rw [e, if_neg h0]
      have ih := outsAt_apply c n (Nat.lt_of_succ_lt h) ρ b
      have e1 : (n + 1) % 32 = n % 32 + 1 := by omega
      have e2 : n + 1 - (n + 1) % 32 = n - n % 32 := by omega
      have e3 : n - n % 32 + (n % 32 + 1) = n + 1 := by omega
      show (if ρ.val = 0 then outsAt0 m c n _ (ix2 ρ b) + _ else outsAt0 m c n _ (ix2 ρ b)) = _
      rw [ih, e2, e1]
      by_cases hρ : ρ.val = 0
      · rw [if_pos hρ, if_pos hρ, if_pos hρ, Finset.sum_range_succ _ (n % 32 + 1), e3]
      · rw [if_neg hρ, if_neg hρ, if_neg hρ]

/-- WHAT A FLUSHING POINT WRITES BACK is its block of the specification's table of the arguments' losses. -/
theorem flushed_eq (c : Dev nD) (t : Fin cfg0.N) (hf : (cfg0.win 4).flush t = true) :
    (dats m 0 c).flushed 4 t = ((cfg0.win 4).blk t).view.read (Elt Ideal) (tableOf m c) := by
  have hN : t.val < 64 := lt_of_lt_of_eq t.isLt (show cfg0.N = 64 from N_0)
  have h31 : t.val % 32 = 31 := (flush0_4 t).mp hf
  obtain ⟨e0, e1⟩ := idx_out t
  show (cfg0.win 4).cut (grid0.coords t) ((dats m 0 c).after 4 t) = _
  rw [after0_4]
  funext j
  have hj0 : (j 0).val < 8 := (j 0).isLt
  have hj1 : (j 1).val < 128 := (j 1).isLt
  have hx : (cfg0.win 4).xinj (grid0.coords t) j = ix2 (⟨(j 0).val, hj0⟩ : Fin 8) (⟨(j 1).val, hj1⟩ : Fin 128) :=
    funext fun a => Fin.ext (by match a with | ⟨0, _⟩ => rfl | ⟨1, _⟩ => rfl)
  have hE0 : ((((cfg0.win 4).blk t).view.emb j) 0).val = t.val / 32 * 8 + (j 0).val := by
    show win0_4.index t (0 : Fin 2) * 8 + 1 * (j 0).val = _
    rw [e0]; omega
  have hE1 : ((((cfg0.win 4).blk t).view.emb j) 1).val = (j 1).val := by
    show win0_4.index t (1 : Fin 2) * 128 + 1 * (j 1).val = _
    rw [e1]; omega
  rw [View.read_apply]
  show outsAt0 m c t.val t.isLt ((cfg0.win 4).xinj (grid0.coords t) j)
    = tableOf m c (((cfg0.win 4).blk t).view.emb j)
  rw [hx, outsAt_apply m c t.val t.isLt]
  unfold tableOf Cert.Spec.table
  rw [hE0, hE1, h31]
  dsimp only
  by_cases hj : (j 0).val = 0
  · have hc : (t.val / 32 * 8 + (j 0).val) % 8 = 0 := by omega
    have hq : 32 * ((t.val / 32 * 8 + (j 0).val) / 8) = t.val - 31 := by omega
    rw [if_pos hj, if_pos hc, hq]
  · have hc : ¬ (t.val / 32 * 8 + (j 0).val) % 8 = 0 := by omega
    rw [if_neg hj, if_neg hc]

/-- An index of the array is in point t's block iff each coordinate is in the block's range on its axis. -/
theorem mem_blk4 (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v0).slice (win0_4.rect t)).set ↔ _
  rw [View.set_slice_whole, Rect.mem_set_unit]
  exact Iff.rfl

/-- The two write-backs cover the array: row i₀ lies in the block written after point 32·(i₀ / 8) + 31. -/
theorem cover (i : S16x128.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hN : cfg0.N = 64 := N_0
  have hlt : 32 * ((i 0).val / 8) + 31 < cfg0.N := by rw [hN]; omega
  refine ⟨⟨32 * ((i 0).val / 8) + 31, hlt⟩, (flush0_4 _).mpr (by show (32 * ((i 0).val / 8) + 31) % 32 = 31; omega), ?_⟩
  obtain ⟨e0, e1⟩ := idx_out ⟨32 * ((i 0).val / 8) + 31, hlt⟩
  have e0' : win0_4.index ⟨32 * ((i 0).val / 8) + 31, hlt⟩ (0 : Fin 2) = (i 0).val / 8 := by
    rw [e0]; show (32 * ((i 0).val / 8) + 31) / 32 = _; omega
  rw [mem_blk4]
  intro a
  match a with
  | ⟨0, _⟩ =>
    show win0_4.index ⟨32 * ((i 0).val / 8) + 31, hlt⟩ (0 : Fin 2) * 8 ≤ (i 0).val
      ∧ (i 0).val < win0_4.index ⟨32 * ((i 0).val / 8) + 31, hlt⟩ (0 : Fin 2) * 8 + 8
    rw [e0']; omega
  | ⟨1, _⟩ =>
    show win0_4.index ⟨32 * ((i 0).val / 8) + 31, hlt⟩ (1 : Fin 2) * 128 ≤ (i 1).val
      ∧ (i 1).val < win0_4.index ⟨32 * ((i 0).val / 8) + 31, hlt⟩ (1 : Fin 2) * 128 + 128
    rw [e1]; omega

/-- THE ARRAY THE REGION LEAVES: the specification's table of the arguments' losses. -/
theorem final (c : Dev nD) : (dats m 0 c).arrAt 4 cfg0.N = tableOf m c :=
  (dats m 0 c).arrAt_eq_of_cover 4 (tableOf m c) (flushed_eq m c) (cover)

end Cert.KernelIdeal.KValue

end
-- ==== Proof.KernelRun.lean ====
/-
  The kernel program's result.

  After the region the host sums the 16 × 128 array from 0 and divides by 262144. The array is the specification's
  table of the arguments' losses, whose total is the sum of the losses over all 262144 samples (the regrouping of the
  specification), so the result is the mean loss.
-/
import proofs.«163225_j27144193311431_2_alg».proof.Proof.Accum
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (g : Dev nD → PrngReg)

/-- The host's lines after the region, on any 16 × 128 array: its total, from 0, over 262144. -/
theorem tail_apply (X : FVec Ideal S16x128 .f32) (h' : S16x128.ReducesTo [0, 1] S_) (hS : 0 < S_.numel) :
    Host.divf (F := Ideal) (Host.reduceAdd (F := Ideal) X (constant (F := Ideal) S_ .f32 0x00000000#32) h' hS)
        (constant (F := Ideal) S_ .f32 0x48800000#32)
      = fun _ => Ideal.div (∑ j : S16x128.Idx, X j) (Ideal.ofBits .f32 0x48800000#32) := by
  funext i
  have hsum : Host.reduceAdd (F := Ideal) X (constant (F := Ideal) S_ .f32 0x00000000#32) h' hS i
      = ∑ j : S16x128.Idx, X j := by
    simp only [Host.reduceAdd, Ideal.hostReduceAdd_def]
    refine (Ideal.hostReduceAdd_total h' (fun b => b.elim0) X _ i).trans ?_
    show Ideal.ofBits .f32 0x00000000#32 + _ = _
    rw [Ideal.ofBits_zero_f32, zero_add]
  show Ideal.div (Host.reduceAdd (F := Ideal) X (constant (F := Ideal) S_ .f32 0x00000000#32) h' hS i)
    (Ideal.ofBits .f32 0x48800000#32) = _
  rw [hsum]

/-- The mean loss of the arguments on core c. -/
abbrev meanOf (c : Dev nD) : EReal :=
  Cert.Spec.mean (m ((c : Thread nD τ).loc main_arg0)) (m ((c : Thread nD τ).loc main_arg1))
    (m ((c : Thread nD τ).loc main_arg2)) (m ((c : Thread nD τ).loc main_arg3))

/-- The total of the table is the sum of the losses over the samples. -/
theorem sum_tableOf (c : Dev nD) :
    ∑ j : S16x128.Idx, tableOf m c j
      = ∑ r : Fin 262144, Cert.Spec.loss (m ((c : Thread nD τ).loc main_arg0)) (m ((c : Thread nD τ).loc main_arg1))
          (m ((c : Thread nD τ).loc main_arg2)) (m ((c : Thread nD τ).loc main_arg3)) r := by
  unfold tableOf
  rw [Cert.Spec.sum_table]
  exact Finset.sum_congr rfl fun r _ => Cert.Spec.lossAt_val _ _ _ _ r

/-- THE RESULT: what the lines after the region leave in the result buffer is the mean loss. -/
theorem result_eq (c : Dev nD) :
    Pipeline.afterTail₀ cfgs (dats m) 0 (V0 m) [hostOps1] c main_v2 = fun _ => meanOf m c := by
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.devRef .tc main_v0) = tableOf m c :=
    (Pipeline.withArrays_arr spec0 launch0.win.arr_inj c _ _ 4).trans (final m c)
  rw [hA, tail_apply, sum_tableOf]
  rfl

/-- The result buffer bypasses the region: it is unscoped and no window's array. -/
theorem result_mem : main_v2 ∈ Pipeline.restRefs sig (cfgs 0).spec :=
  Pipeline.mem_restRefs_of main_v2 rfl (by decide)

/-- THE RUN, READ: every weakly fair execution of the kernel program ends with the result at the mean loss of the
    arguments and the arguments unchanged. -/
theorem run : θ_run defs (onTc (τ := τ) (main (F := Ideal))) ⟨m, fun _ => 0, g⟩ fun r => ∀ c : Dev nD,
      r.2.mem ((c.tc : Thread nD τ).loc main_v2) = (fun _ => meanOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 result_mem).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m g)

end Cert.KernelIdeal.KValue

end
-- ==== Proof.lean ====
/-
  The mean of a triplet loss over 262144 samples: a kernel that accumulates it across a grid against the plain
  formula.

  For sample r, with rows A[r], P[r], N[r] of the three embedding matrices and the pair G[r,0], G[r,1]:
    loss(r) = e^{−G[r,0]} · (e^{−G[r,0]} − e^{−‖A[r] − P[r]‖})² + e^{−G[r,1]} · (e^{−G[r,1]} − e^{−‖A[r] − N[r]‖})²
  where ‖x‖ is the square root of the sum of squares, and the result is (Σ_r loss(r)) / 262144.

  The reference computes exactly this, one array operation at a time. The kernel walks a grid of 2 × 32 points; point
  (c, i) takes rows 4096·(32c + i) … of the inputs, arranges the 4096 per-row numbers as 32 × 128 matrices, forms the
  losses there, sums down the 128 columns, and adds that row of 128 numbers into row 0 of block c of a 16 × 128 output
  (zeroed at i = 0); the host then sums the whole output and divides by 262144. Over the extended reals every
  operation is exact, so the two results differ only in the order and grouping of one finite sum (and in writing −x as
  0 − x): the output's row 8c holds, in column b, the sum of loss over the rows 131072·c + 4096·s + 128·u + b, its other
  rows hold 0, and the total of that table is Σ_r loss(r) by commutativity and associativity of + alone. No input need
  be finite for this, so the precondition is not used.

  The modules: Spec (the formula, the table, the regrouping of the sum), RefSide (the reference is the formula),
  KernelPayload (the body's arithmetic at an index), Cases (what one run of the body leaves in the accumulator block),
  Blocks (a window's block is a stretch of rows of its array), Accum (the accumulator across the grid, by induction
  on the point; the array the region leaves), KernelRun (the host's lines after the region; the kernel program's run).
  The kernel is not rewritten by idealization, so that conjunct is trivial; the three frame conjuncts are the
  imported frame theorems (the reference's: its run with the result dropped).
-/
import proofs.«163225_j27144193311431_2_alg».proof.Defs
import proofs.«163225_j27144193311431_2_alg».proof.Proof.Gen.Kernel
import proofs.«163225_j27144193311431_2_alg».proof.Proof.Gen.Kernel.Skeleton
import proofs.«163225_j27144193311431_2_alg».proof.Proof.Gen.Kernel.Launch
import proofs.«163225_j27144193311431_2_alg».proof.Proof.Gen.Kernel.Points
import proofs.«163225_j27144193311431_2_alg».proof.Proof.Gen.Kernel.Frame
import proofs.«163225_j27144193311431_2_alg».proof.Proof.Gen.KernelIdeal
import proofs.«163225_j27144193311431_2_alg».proof.Proof.Gen.KernelIdeal.Skeleton
import proofs.«163225_j27144193311431_2_alg».proof.Proof.Gen.KernelIdeal.Launch
import proofs.«163225_j27144193311431_2_alg».proof.Proof.Gen.KernelIdeal.Points
import proofs.«163225_j27144193311431_2_alg».proof.Proof.Gen.KernelIdeal.Frame
import proofs.«163225_j27144193311431_2_alg».proof.Proof.Gen.ReferenceIdeal
import proofs.«163225_j27144193311431_2_alg».proof.Proof.Gen.ReferenceIdeal.Run
import proofs.«163225_j27144193311431_2_alg».proof.Proof.Gen.ReferenceIdeal.Read
import proofs.«163225_j27144193311431_2_alg».proof.Proof.Gen.Pre_finite_inputs
import proofs.«163225_j27144193311431_2_alg».proof.Proof.RefSide
import proofs.«163225_j27144193311431_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean loss of the arguments: the kernel's by its run read through the accumulator,
    the reference's by its run read one operation at a time, from memories that agree on the arguments. -/
theorem algebraic : Cert.algebraic_KernelIdeal_ReferenceIdeal := by
  intro m ρ m' ρ' _ hagree
  refine ⟨fun c => fun _ => Cert.KernelIdeal.KValue.meanOf m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
